-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x64 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S1x64 .f32) (main_arg9 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S5000x64 : Shape := ⟨2, ![5000, 64]⟩
abbrev S5000x1 : Shape := ⟨2, ![5000, 1]⟩
abbrev S64x1 : Shape := ⟨2, ![64, 1]⟩
abbrev S1x1 : Shape := ⟨2, ![1, 1]⟩

abbrev nBuf : Space → Nat
  | .hbm => 57
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S50000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S64x64, .f32⟩
  | .hbm, ⟨35, _⟩ => ⟨S64x64, .f32⟩
  | .hbm, ⟨36, _⟩ => ⟨S1x64, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S64x1, .f32⟩
  | .hbm, ⟨55, _⟩ => ⟨S1x1, .f32⟩
  | .hbm, ⟨56, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S64x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S50000x1.size a
  hwx1_8 : ∀ i : grid1.Coords, EltTy.bits .f32 = 32 ∨ (Rect.block (s := S50000x1) S5000x1.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S64x1 : Shape := ⟨2, ![64, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S64x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S64x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S64x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S64x64, .f32⟩
  | .hbm, ⟨81, _⟩ => ⟨S50000x64, .f32⟩
  | .hbm, ⟨82, _⟩ => ⟨S50000x64, .f32⟩
  | .hbm, ⟨83, _⟩ => ⟨S_, .f32⟩
  | .hbm, ⟨84, _⟩ => ⟨S50000x64, .f32⟩
  | .hbm, ⟨85, _⟩ => ⟨S50000x64, .f32⟩
  | .hbm, ⟨86, _⟩ => ⟨S64x1, .f32⟩
  | .hbm, ⟨87, _⟩ => ⟨S50000x1, .f32⟩
  | .hbm, ⟨88, _⟩ => ⟨S1x1, .f32⟩
  | .hbm, ⟨89, _⟩ => ⟨S50000x1, .f32⟩
  | .hbm, ⟨90, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S1x64_S64x1_1_0 : S1x64.Transposes [1, 0] S64x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The kernel's run with its result array named.

  @main is a stretch of host operations, the first region, a second stretch, the second region.  The contents of every
  buffer at each of the four boundaries form a fold from the launch memory: a stretch applies its operations'
  functions, a region leaves each of its arrays at what its write-backs make of it and every other buffer alone.  Every
  weakly fair execution ends with every unscoped buffer at the fold's last stage; read at the result buffer this names the
  result array, and read at an argument it is the launch contents.
-/
import proofs.«123944_j59854664237698_1_alg».proof.Proof.Gen.KernelIdeal.Frame

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of the
    fold and the arguments as launched. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Sage

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.Entry.lean ====
/-
  One entry of a neighbour-averaging graph layer, and the two kernel bodies read at an index.

  A node's new feature `j` is `max (∑ k, (a k / max d 1) · wl k + b + ∑ k, x k · wr k) 0`: the node's summed
  neighbour features `a` divided by its in-degree `d` clipped below at one, sent through column `j` of the
  neighbour weights `wl`, plus the bias `b`, plus the node's own features `x` through column `j` of the root
  weights `wr`, clipped below at zero.  On the extended reals a change of float format is the identity and a
  matrix product into the zero accumulator is the plain sum over the contracted axis, so each body's stored
  value at row `p` and column `j` is this entry of row `p` of its operand blocks.
-/
import proofs.«123944_j59854664237698_1_alg».proof.Proof.Gen.KernelIdeal.Skeleton
import proofs.«123944_j59854664237698_1_alg».proof.Proof.LibMatmulRows
import Idealize.ShloMosaic.Lib.ValueIdx
import Idealize.ShloMosaic.Lib.Pipeline.Value
import Idealize.ShloMosaic.PureOps.Ideal.Laws

noncomputable section

open scoped BigOperators

namespace Cert.Sage

open Idealize.ShloMosaic Idealize.ShloMosaic.ValueIdx Cert.KernelIdeal

/-- One entry of a layer's output: neighbour mean through `wl`, plus bias, plus own row through `wr`, clipped at zero. -/
def sageEntry (a x : Fin 64 → EReal) (d : EReal) (wl wr : Fin 64 → EReal) (b : EReal) : EReal :=
  max ((∑ k : Fin 64, Ideal.div (a k) (max d (Ideal.ofBits .f32 0x3F800000#32)) * wl k) + b + ∑ k : Fin 64, x k * wr k)
    (Ideal.ofBits .f32 0x00000000#32)

/-- The 5000×64 by 64×64 product into the zero accumulator at row `p`, column `j`. -/
theorem mm64 (l : FVec Ideal S5000x64 .bf16) (r : FVec Ideal S64x64 .bf16) (p : Fin 5000) (j : Fin 64) :
    matmul dot_S5000x64_S64x64_S5000x64_1_0_0_1_n_n none l r (constant (F := Ideal) S5000x64 .f32 0x00000000#32) (ix2 p j)
      = ∑ k : Fin 64, l (ix2 p k) * r (ix2 k j) :=
  Cert.LibMatmulRows.matmul_zero_apply dot_S5000x64_S64x64_S5000x64_1_0_0_1_n_n rfl rfl
    (fun i q => by
      unfold DotDims.lhsIdx
      rw [dif_neg (show ¬(0 : Fin S5000x64.rank) ∈ dot_S5000x64_S64x64_S5000x64_1_0_0_1_n_n.lhsBatch by decide),
        dif_pos (show (0 : Fin S5000x64.rank) ∈ dot_S5000x64_S64x64_S5000x64_1_0_0_1_n_n.lhsNonContracting by decide)]
      rfl)
    (fun i q => dot_S5000x64_S64x64_S5000x64_1_0_0_1_n_n.lhsIdx_val_of_single rfl i q)
    (fun i q => dot_S5000x64_S64x64_S5000x64_1_0_0_1_n_n.rhsIdx_val_of_single rfl i q)
    (fun i q => by
      unfold DotDims.rhsIdx
      rw [dif_neg (show ¬(1 : Fin S64x64.rank) ∈ dot_S5000x64_S64x64_S5000x64_1_0_0_1_n_n.rhsBatch by decide),
        dif_pos (show (1 : Fin S64x64.rank) ∈ dot_S5000x64_S64x64_S5000x64_1_0_0_1_n_n.rhsNonContracting by decide)]
      rfl)
    none l r p j

/-- The 5000×64 by 64×1 product into the zero accumulator at row `p`. -/
theorem mm1 (l : FVec Ideal S5000x64 .bf16) (r : FVec Ideal S64x1 .bf16) (p : Fin 5000) (j : Fin 1) :
    matmul dot_S5000x64_S64x1_S5000x1_1_0_0_1_n_n none l r (constant (F := Ideal) S5000x1 .f32 0x00000000#32) (ix2 p j)
      = ∑ k : Fin 64, l (ix2 p k) * r (ix2 k j) :=
  Cert.LibMatmulRows.matmul_zero_apply dot_S5000x64_S64x1_S5000x1_1_0_0_1_n_n rfl rfl
    (fun i q => by
      unfold DotDims.lhsIdx
      rw [dif_neg (show ¬(0 : Fin S5000x64.rank) ∈ dot_S5000x64_S64x1_S5000x1_1_0_0_1_n_n.lhsBatch by decide),
        dif_pos (show (0 : Fin S5000x64.rank) ∈ dot_S5000x64_S64x1_S5000x1_1_0_0_1_n_n.lhsNonContracting by decide)]
      rfl)
    (fun i q => dot_S5000x64_S64x1_S5000x1_1_0_0_1_n_n.lhsIdx_val_of_single rfl i q)
    (fun i q => dot_S5000x64_S64x1_S5000x1_1_0_0_1_n_n.rhsIdx_val_of_single rfl i q)
    (fun i q => by
      unfold DotDims.rhsIdx
      rw [dif_neg (show ¬(1 : Fin S64x1.rank) ∈ dot_S5000x64_S64x1_S5000x1_1_0_0_1_n_n.rhsBatch by decide),
        dif_pos (show (1 : Fin S64x1.rank) ∈ dot_S5000x64_S64x1_S5000x1_1_0_0_1_n_n.rhsNonContracting by decide)]
      rfl)
    none l r p j

/-- A column of per-row values spread along each row: entry `(p, k)` is the row's value. -/
theorem bcastCol (v : FVec Ideal S5000x1 .f32) (p : Fin 5000) (k : Fin 64) :
    broadcastTo S5000x64 v Gen.broadcasts_S5000x1_S5000x64 (ix2 p k) = v (ix2 p 0) :=
  broadcastTo_apply v Gen.broadcasts_S5000x1_S5000x64 (ix2 p k) (ix2 p 0) (fun a => match a with
    | ⟨0, _⟩ => by show p.val = if (5000 : ℕ) = 1 then 0 else p.val; rw [if_neg (by decide)]
    | ⟨1, _⟩ => by show (0 : ℕ) = if (1 : ℕ) = 1 then 0 else k.val; rw [if_pos rfl])

/-- A single row repeated down the rows: entry `(p, j)` is the row's entry `j`. -/
theorem bcastRow (v : FVec Ideal S1x64 .f32) (p : Fin 5000) (j : Fin 64) :
    broadcastTo S5000x64 v Gen.broadcasts_S1x64_S5000x64 (ix2 p j) = v (ix2 0 j) :=
  broadcastTo_apply v Gen.broadcasts_S1x64_S5000x64 (ix2 p j) (ix2 0 j) (fun a => match a with
    | ⟨0, _⟩ => by show (0 : ℕ) = if (1 : ℕ) = 1 then 0 else p.val; rw [if_pos rfl]
    | ⟨1, _⟩ => by show j.val = if (64 : ℕ) = 1 then 0 else j.val; rw [if_neg (by decide)])

/-- A single value repeated down a one-column array. -/
theorem bcastOne (v : FVec Ideal S1x1 .f32) (p : Fin 5000) (j : Fin 1) :
    broadcastTo S5000x1 v Gen.broadcasts_S1x1_S5000x1 (ix2 p j) = v (ix2 0 0) :=
  broadcastTo_apply v Gen.broadcasts_S1x1_S5000x1 (ix2 p j) (ix2 0 0) (fun a => match a with
    | ⟨0, _⟩ => by show (0 : ℕ) = if (1 : ℕ) = 1 then 0 else p.val; rw [if_pos rfl]
    | ⟨1, _⟩ => by show (0 : ℕ) = if (1 : ℕ) = 1 then 0 else j.val; rw [if_pos rfl])

/-- The first body's stored value at row `p`, column `j`. -/
theorem pay0_apply (cnt : Vec Ideal S5000x1 .f32) (agg x : Vec Ideal S5000x64 .f32) (wl wr : Vec Ideal S64x64 .f32)
    (bl : Vec Ideal S1x64 .f32) (p : Fin 5000) (j : Fin 64) :
    Gen.k0_pay1 (F := Ideal) cnt agg x wl wr bl (ix2 p j)
      = sageEntry (fun k => agg (ix2 p k)) (fun k => x (ix2 p k)) (cnt (ix2 p 0))
          (fun k => wl (ix2 k j)) (fun k => wr (ix2 k j)) (bl (ix2 0 j)) := by
  unfold Gen.k0_pay1 sageEntry
  rw [maximumf_apply, addf_apply, addf_apply, mm64, mm64, bcastRow]
  simp only [bcastCol, truncf_apply, divf_apply, maximumf_apply, shapeCast_self, broadcast_apply, Ideal.ofBits_def]

/-- The hidden layer the second body computes before its head, at row `p`, column `k`, is the same entry. -/
theorem pay1_apply (cnt : Vec Ideal S5000x1 .f32) (agg h : Vec Ideal S5000x64 .f32) (wl wr : Vec Ideal S64x64 .f32)
    (bl : Vec Ideal S1x64 .f32) (wf : Vec Ideal S64x1 .f32) (bf : Vec Ideal S1x1 .f32) (p : Fin 5000) (j : Fin 1) :
    Gen.k1_pay1 (F := Ideal) cnt agg h wl wr bl wf bf (ix2 p j)
      = (∑ k : Fin 64, sageEntry (fun k' => agg (ix2 p k')) (fun k' => h (ix2 p k')) (cnt (ix2 p 0))
          (fun k' => wl (ix2 k' k)) (fun k' => wr (ix2 k' k)) (bl (ix2 0 k)) * wf (ix2 k j)) + bf (ix2 0 0) := by
  unfold Gen.k1_pay1 sageEntry
  rw [addf_apply, mm1, bcastOne]
  simp only [truncf_apply, maximumf_apply, addf_apply, mm64, bcastRow, bcastCol, divf_apply, shapeCast_self, broadcast_apply, Ideal.ofBits_def]

end Cert.Sage

end
-- ==== Proof.Blocks0.lean ====
/-
  The first region's output array.

  Its grid has ten points; point `t` reads rows `5000·t … 5000·t + 4999` of the node features, of the neighbour
  sums and of the in-degree column, together with the whole of the two weight matrices and of the bias row, and
  writes back the same rows of the output.  Entry `(p, j)` of the block written at `t` is the layer entry of the
  block's row `p`, that is of row `5000·t + p` of the arrays; the ten blocks tile the 50000 rows, so the array ends
  holding the layer entry of every row.  All of this is stated at whatever contents `V` the region finds.
-/
import proofs.«123944_j59854664237698_1_alg».proof.Proof.Gen.KernelIdeal.Frame
import proofs.«123944_j59854664237698_1_alg».proof.Proof.Entry
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Sage

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Equal rows, degrees, weight columns and bias give equal entries. -/
theorem sageEntry_congr {a a' x x' : Fin 64 → EReal} {d d' : EReal} {wl wl' wr wr' : Fin 64 → EReal} {b b' : EReal}
    (ha : ∀ k, a k = a' k) (hx : ∀ k, x k = x' k) (hd : d = d') (hwl : ∀ k, wl k = wl' k) (hwr : ∀ k, wr k = wr' k)
    (hb : b = b') : sageEntry a x d wl wr b = sageEntry a' x' d' wl' wr' b' := by
  obtain rfl := funext ha
  obtain rfl := funext hx
  obtain rfl := funext hwl
  obtain rfl := funext hwr
  subst hd hb
  rfl

/-- The layer entry of row `p`, column `j`, of whole arrays: features `X`, neighbour sums `A`, in-degree column `C`,
    neighbour weights `WT` and root weights `WR` (both indexed input-feature first), bias row `B`. -/
def layerAt (X A : S50000x64.Idx → EReal) (C : S50000x1.Idx → EReal) (WT : S64x64.Idx → EReal) (B : S1x64.Idx → EReal)
    (WR : S64x64.Idx → EReal) (p : Fin 50000) (j : Fin 64) : EReal :=
  sageEntry (fun k => A (ix2 p k)) (fun k => X (ix2 p k)) (C (ix2 p 0)) (fun k => WT (ix2 k j)) (fun k => WR (ix2 k j)) (B (ix2 0 j))

/-- The layer's whole output array. -/
def layerArr (X A : S50000x64.Idx → EReal) (C : S50000x1.Idx → EReal) (WT : S64x64.Idx → EReal) (B : S1x64.Idx → EReal)
    (WR : S64x64.Idx → EReal) : S50000x64.Idx → EReal := fun i => layerAt X A C WT B WR (i 0) (i 1)

/-- The block index maps over the grid: the three row-tiled inputs and the output move with the point, the weights and
    the bias stay at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the feature block at point `t` is row `5000·t + p` of the feature array. -/
theorem blk0_0 (c : Dev nD) (t : Fin cfg0.N) (p : Fin 5000) (k : Fin 64) (P : Fin 50000) (hP : P.val = t.val * 5000 + p.val) :
    (iblk0 V c 0 t : Vec Ideal S5000x64 .f32) (ix2 p k) = (V c main_arg0 : S50000x64.Idx → EReal) (ix2 P k) := by
  obtain ⟨e0, e1, -⟩ := idx_facts0 t
  unfold iblk0
  rw [View.read_apply]
  show (V c main_arg0 : S50000x64.Idx → EReal) _ = _
  refine congrArg _ (funext fun a => Fin.ext ?_)
  match a with
  | ⟨0, _⟩ => show win0_0.index t (0 : Fin 2) * 5000 + 1 * p.val = P.val; rw [e0, hP]; omega
  | ⟨1, _⟩ => show win0_0.index t (1 : Fin 2) * 64 + 1 * k.val = k.val; rw [e1]; omega

/-- The same for the neighbour sums. -/
theorem blk0_1 (c : Dev nD) (t : Fin cfg0.N) (p : Fin 5000) (k : Fin 64) (P : Fin 50000) (hP : P.val = t.val * 5000 + p.val) :
    (iblk0 V c 1 t : Vec Ideal S5000x64 .f32) (ix2 p k) = (V c main_v18 : S50000x64.Idx → EReal) (ix2 P k) := by
  obtain ⟨-, -, e0, e1, -⟩ := idx_facts0 t
  unfold iblk0
  rw [View.read_apply]
  show (V c main_v18 : S50000x64.Idx → EReal) _ = _
  refine congrArg _ (funext fun a => Fin.ext ?_)
  match a with
  | ⟨0, _⟩ => show win0_1.index t (0 : Fin 2) * 5000 + 1 * p.val = P.val; rw [e0, hP]; omega
  | ⟨1, _⟩ => show win0_1.index t (1 : Fin 2) * 64 + 1 * k.val = k.val; rw [e1]; omega

/-- The same for the in-degree column. -/
theorem blk0_2 (c : Dev nD) (t : Fin cfg0.N) (p : Fin 5000) (P : Fin 50000) (hP : P.val = t.val * 5000 + p.val) :
    (iblk0 V c 2 t : Vec Ideal S5000x1 .f32) (ix2 p 0) = (V c main_v8 : S50000x1.Idx → EReal) (ix2 P 0) := by
  obtain ⟨-, -, -, -, e0, e1, -⟩ := idx_facts0 t
  unfold iblk0
  rw [View.read_apply]
  show (V c main_v8 : S50000x1.Idx → EReal) _ = _
  refine congrArg _ (funext fun a => Fin.ext ?_)
  match a with
  | ⟨0, _⟩ => show win0_2.index t (0 : Fin 2) * 5000 + 1 * p.val = P.val; rw [e0, hP]; omega
  | ⟨1, _⟩ => show win0_2.index t (1 : Fin 2) * 1 + 1 * 0 = 0; rw [e1]

/-- Every point's neighbour-weight block is the whole matrix. -/
theorem blk0_3 (c : Dev nD) (t : Fin cfg0.N) (k j : Fin 64) :
    (iblk0 V c 3 t : Vec Ideal S64x64 .f32) (ix2 k j) = (V c main_v19 : S64x64.Idx → EReal) (ix2 k j) := by
  obtain ⟨-, -, -, -, -, -, e0, e1, -⟩ := idx_facts0 t
  unfold iblk0
  rw [View.read_apply]
  show (V c main_v19 : S64x64.Idx → EReal) _ = _
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 64 + 1 * j.val = j.val; rw [e1]; omega

/-- Every point's bias block is the whole row. -/
theorem blk0_4 (c : Dev nD) (t : Fin cfg0.N) (j : Fin 64) :
    (iblk0 V c 4 t : Vec Ideal S1x64 .f32) (ix2 0 j) = (V c main_v21 : S1x64.Idx → EReal) (ix2 0 j) := by
  obtain ⟨-, -, -, -, -, -, -, -, e0, e1, -⟩ := idx_facts0 t
  unfold iblk0
  rw [View.read_apply]
  show (V c main_v21 : S1x64.Idx → EReal) _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 64 + 1 * j.val = j.val; rw [e1]; omega

/-- Every point's root-weight block is the whole matrix. -/
theorem blk0_5 (c : Dev nD) (t : Fin cfg0.N) (k j : Fin 64) :
    (iblk0 V c 5 t : Vec Ideal S64x64 .f32) (ix2 k j) = (V c main_v20 : S64x64.Idx → EReal) (ix2 k j) := by
  obtain ⟨-, -, -, -, -, -, -, -, -, -, e0, e1, -⟩ := idx_facts0 t
  unfold iblk0
  rw [View.read_apply]
  show (V c main_v20 : S64x64.Idx → EReal) _ = _
  refine congrArg _ (funext fun a => Fin.ext ?_)
  match a with
  | ⟨0, _⟩ => show win0_5.index t (0 : Fin 2) * 64 + 1 * k.val = k.val; rw [e0]; omega
  | ⟨1, _⟩ => show win0_5.index t (1 : Fin 2) * 64 + 1 * j.val = j.val; rw [e1]; omega

/-- What point `t` writes back is block `t` of the layer's output array. -/
theorem flushed0 (c : Dev nD) (t : Fin cfg0.N) :
    (dat0 V c).flushed 6 t = ((cfg0.win 6).blk t).view.read (Elt Ideal)
      (layerArr (V c main_arg0) (V c main_v18) (V c main_v8) (V c main_v19) (V c main_v21) (V c main_v20)) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz, View.ld_unit_zero (S := S1x64) hz]
  obtain ⟨-, -, -, -, -, -, -, -, -, -, -, -, e0, e1⟩ := idx_facts0 t
  have hN : cfg0.N = 10 := N_0
  have ht : t.val < 10 := hN ▸ t.isLt
  funext y
  have hy0 : (y 0).val < 5000 := (y 0).isLt
  have hy1 : (y 1).val < 64 := (y 1).isLt
  have hx : (win0 6).xinj (grid0.coords t) y = ix2 (⟨(y 0).val, hy0⟩ : Fin 5000) (⟨(y 1).val, hy1⟩ : Fin 64) :=
    funext fun a => by match a with | ⟨0, _⟩ => rfl | ⟨1, _⟩ => rfl
  have he : ((View.whole main_v22).slice ((win0 6).rect t)).emb y
      = ix2 (⟨t.val * 5000 + (y 0).val, by omega⟩ : Fin 50000) (⟨(y 1).val, hy1⟩ : Fin 64) :=
    funext fun a => Fin.ext (by
      match a with
      | ⟨0, _⟩ => show win0_6.index t (0 : Fin 2) * 5000 + 1 * (y 0).val = t.val * 5000 + (y 0).val; rw [e0]; omega
      | ⟨1, _⟩ => show win0_6.index t (1 : Fin 2) * 64 + 1 * (y 1).val = (y 1).val; rw [e1]; omega)
  show Gen.k0_pay1 (F := Ideal) (iblk0 V c 2 t) (iblk0 V c 1 t) (iblk0 V c 0 t) (iblk0 V c 3 t) (iblk0 V c 5 t) (iblk0 V c 4 t)
      ((win0 6).xinj (grid0.coords t) y) = _
  rw [hx, View.read_apply, he]
  refine (pay0_apply (iblk0 V c 2 t) (iblk0 V c 1 t) (iblk0 V c 0 t) (iblk0 V c 3 t) (iblk0 V c 5 t) (iblk0 V c 4 t) _ _).trans ?_
  exact sageEntry_congr (fun k => blk0_1 V c t _ k _ rfl) (fun k => blk0_0 V c t _ k _ rfl) (blk0_2 V c t _ _ rfl)
    (fun k => blk0_3 V c t k _) (fun k => blk0_5 V c t k _) (blk0_4 V c t _)

/-- The ten blocks tile the rows, so the output array ends holding the layer entry of every row. -/
theorem final0 (c : Dev nD) : (dat0 V c).arrAt 6 cfg0.N
    = layerArr (V c main_arg0) (V c main_v18) (V c main_v8) (V c main_v19) (V c main_v21) (V c main_v20) :=
  (dat0 V c).arrAt_eq_of_cover 6 _ (fun t _ => flushed0 V c t) fun i => by
    have hi0 : (i 0).val < 50000 := (i 0).isLt
    have hi1 : (i 1).val < 64 := (i 1).isLt
    have hN : cfg0.N = 10 := N_0
    obtain ⟨t, ht⟩ : ∃ t : Fin cfg0.N, t.val = (i 0).val / 5000 := ⟨⟨(i 0).val / 5000, by rw [hN]; omega⟩, rfl⟩
    obtain ⟨-, -, -, -, -, -, -, -, -, -, -, -, e0, e1⟩ := idx_facts0 t
    refine ⟨t, flush0_6 t, ?_⟩
    show i ∈ ((View.whole main_v22).slice (win0_6.rect t)).set
    rw [View.set_slice_whole, Rect.mem_set_unit]
    intro a
    match a with
    | ⟨0, _⟩ =>
      show win0_6.index t (0 : Fin 2) * 5000 ≤ (i 0).val ∧ (i 0).val < win0_6.index t (0 : Fin 2) * 5000 + 5000
      rw [e0, ht]; omega
    | ⟨1, _⟩ =>
      show win0_6.index t (1 : Fin 2) * 64 ≤ (i 1).val ∧ (i 1).val < win0_6.index t (1 : Fin 2) * 64 + 64
      rw [e1]; omega

end Cert.Sage

end
-- ==== Proof.Blocks1.lean ====
/-
  The second region's output array.

  Its ten points tile the 50000 rows like the first region's.  Point `t` reads rows `5000·t …` of the hidden features,
  of their neighbour sums and of the in-degree column, the whole second-layer weights and bias, the head's weight
  column and its bias, and writes back the same rows of the one-column result: entry `p` of the block is the head
  `∑ k, h₂[p,k] · wf[k] + bf` of the second layer's row `p`, each `h₂[p,k]` being the layer entry of the block's row
  `p`.  So the result array ends holding the head of every row's second-layer features.
-/
import proofs.«123944_j59854664237698_1_alg».proof.Proof.Blocks0

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Sage

open Cert.KernelIdeal Cert.KernelIdeal.Gen

variable (V : (c : Dev nD) → (b : Ref sig .tc) → Buf (Elt Ideal) ((c : Thread nD τ).loc b))

/-- The head of row `p`: the second layer's features of the row against the head's weight column, plus its bias. -/
def headAt (H A : S50000x64.Idx → EReal) (C : S50000x1.Idx → EReal) (WT : S64x64.Idx → EReal) (B : S1x64.Idx → EReal)
    (WR : S64x64.Idx → EReal) (WF : S64x1.Idx → EReal) (BF : S1x1.Idx → EReal) (p : Fin 50000) : EReal :=
  (∑ k : Fin 64, layerAt H A C WT B WR p k * WF (ix2 k 0)) + BF (ix2 0 0)

/-- The one-column result array. -/
def headArr (H A : S50000x64.Idx → EReal) (C : S50000x1.Idx → EReal) (WT : S64x64.Idx → EReal) (B : S1x64.Idx → EReal)
    (WR : S64x64.Idx → EReal) (WF : S64x1.Idx → EReal) (BF : S1x1.Idx → EReal) : S50000x1.Idx → EReal :=
  fun i => headAt H A C WT B WR WF BF (i 0)

/-- The block index maps over the grid: the three row-tiled inputs and the output move with the point, everything else
    stays at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row `p` of the hidden-feature block at point `t` is row `5000·t + p` of the hidden-feature array. -/
theorem blk1_0 (c : Dev nD) (t : Fin cfg1.N) (p : Fin 5000) (k : Fin 64) (P : Fin 50000) (hP : P.val = t.val * 5000 + p.val) :
    (iblk1 V c 0 t : Vec Ideal S5000x64 .f32) (ix2 p k) = (V c main_v22 : S50000x64.Idx → EReal) (ix2 P k) := by
  obtain ⟨e0, e1, -⟩ := idx_facts1 t
  unfold iblk1
  rw [View.read_apply]
  show (V c main_v22 : S50000x64.Idx → EReal) _ = _
  refine congrArg _ (funext fun a => Fin.ext ?_)
  match a with
  | ⟨0, _⟩ => show win1_0.index t (0 : Fin 2) * 5000 + 1 * p.val = P.val; rw [e0, hP]; omega
  | ⟨1, _⟩ => show win1_0.index t (1 : Fin 2) * 64 + 1 * k.val = k.val; rw [e1]; omega

/-- The same for the neighbour sums of the hidden features. -/
theorem blk1_1 (c : Dev nD) (t : Fin cfg1.N) (p : Fin 5000) (k : Fin 64) (P : Fin 50000) (hP : P.val = t.val * 5000 + p.val) :
    (iblk1 V c 1 t : Vec Ideal S5000x64 .f32) (ix2 p k) = (V c main_v32 : S50000x64.Idx → EReal) (ix2 P k) := by
  obtain ⟨-, -, e0, e1, -⟩ := idx_facts1 t
  unfold iblk1
  rw [View.read_apply]
  show (V c main_v32 : S50000x64.Idx → EReal) _ = _
  refine congrArg _ (funext fun a => Fin.ext ?_)
  match a with
  | ⟨0, _⟩ => show win1_1.index t (0 : Fin 2) * 5000 + 1 * p.val = P.val; rw [e0, hP]; omega
  | ⟨1, _⟩ => show win1_1.index t (1 : Fin 2) * 64 + 1 * k.val = k.val; rw [e1]; omega

/-- The same for the in-degree column. -/
theorem blk1_2 (c : Dev nD) (t : Fin cfg1.N) (p : Fin 5000) (P : Fin 50000) (hP : P.val = t.val * 5000 + p.val) :
    (iblk1 V c 2 t : Vec Ideal S5000x1 .f32) (ix2 p 0) = (V c main_v8 : S50000x1.Idx → EReal) (ix2 P 0) := by
  obtain ⟨-, -, -, -, e0, e1, -⟩ := idx_facts1 t
  unfold iblk1
  rw [View.read_apply]
  show (V c main_v8 : S50000x1.Idx → EReal) _ = _
  refine congrArg _ (funext fun a => Fin.ext ?_)
  match a with
  | ⟨0, _⟩ => show win1_2.index t (0 : Fin 2) * 5000 + 1 * p.val = P.val; rw [e0, hP]; omega
  | ⟨1, _⟩ => show win1_2.index t (1 : Fin 2) * 1 + 1 * 0 = 0; rw [e1]

/-- Every point's neighbour-weight block is the whole matrix. -/
theorem blk1_3 (c : Dev nD) (t : Fin cfg1.N) (k j : Fin 64) :
    (iblk1 V c 3 t : Vec Ideal S64x64 .f32) (ix2 k j) = (V c main_v33 : S64x64.Idx → EReal) (ix2 k j) := by
  obtain ⟨-, -, -, -, -, -, e0, e1, -⟩ := idx_facts1 t
  unfold iblk1
  rw [View.read_apply]
  show (V c main_v33 : S64x64.Idx → EReal) _ = _
  refine congrArg _ (funext fun a => Fin.ext ?_)
  match a with
  | ⟨0, _⟩ => show win1_3.index t (0 : Fin 2) * 64 + 1 * k.val = k.val; rw [e0]; omega
  | ⟨1, _⟩ => show win1_3.index t (1 : Fin 2) * 64 + 1 * j.val = j.val; rw [e1]; omega

/-- Every point's bias block is the whole row. -/
theorem blk1_4 (c : Dev nD) (t : Fin cfg1.N) (j : Fin 64) :
    (iblk1 V c 4 t : Vec Ideal S1x64 .f32) (ix2 0 j) = (V c main_v35 : S1x64.Idx → EReal) (ix2 0 j) := by
  obtain ⟨-, -, -, -, -, -, -, -, e0, e1, -⟩ := idx_facts1 t
  unfold iblk1
  rw [View.read_apply]
  show (V c main_v35 : S1x64.Idx → EReal) _ = _
  refine congrArg _ (funext fun a => Fin.ext ?_)
  match a with
  | ⟨0, _⟩ => show win1_4.index t (0 : Fin 2) * 1 + 1 * 0 = 0; rw [e0]
  | ⟨1, _⟩ => show win1_4.index t (1 : Fin 2) * 64 + 1 * j.val = j.val; rw [e1]; omega

/-- Every point's root-weight block is the whole matrix. -/
theorem blk1_5 (c : Dev nD) (t : Fin cfg1.N) (k j : Fin 64) :
    (iblk1 V c 5 t : Vec Ideal S64x64 .f32) (ix2 k j) = (V c main_v34 : S64x64.Idx → EReal) (ix2 k j) := by
  obtain ⟨-, -, -, -, -, -, -, -, -, -, e0, e1, -⟩ := idx_facts1 t
  unfold iblk1
  rw [View.read_apply]
  show (V c main_v34 : S64x64.Idx → EReal) _ = _
  refine congrArg _ (funext fun a => Fin.ext ?_)
  match a with
  | ⟨0, _⟩ => show win1_5.index t (0 : Fin 2) * 64 + 1 * k.val = k.val; rw [e0]; omega
  | ⟨1, _⟩ => show win1_5.index t (1 : Fin 2) * 64 + 1 * j.val = j.val; rw [e1]; omega

/-- Every point's head-weight block is the whole column. -/
theorem blk1_6 (c : Dev nD) (t : Fin cfg1.N) (k : Fin 64) :
    (iblk1 V c 6 t : Vec Ideal S64x1 .f32) (ix2 k 0) = (V c main_v36 : S64x1.Idx → EReal) (ix2 k 0) := by
  obtain ⟨-, -, -, -, -, -, -, -, -, -, -, -, e0, e1, -⟩ := idx_facts1 t
  unfold iblk1
  rw [View.read_apply]
  show (V c main_v36 : S64x1.Idx → EReal) _ = _
  refine congrArg _ (funext fun a => Fin.ext ?_)
  match a with
  | ⟨0, _⟩ => show win1_6.index t (0 : Fin 2) * 64 + 1 * k.val = k.val; rw [e0]; omega
  | ⟨1, _⟩ => show win1_6.index t (1 : Fin 2) * 1 + 1 * 0 = 0; rw [e1]

/-- Every point's head-bias block is the one entry. -/
theorem blk1_7 (c : Dev nD) (t : Fin cfg1.N)  :
    (iblk1 V c 7 t : Vec Ideal S1x1 .f32) (ix2 0 0) = (V c main_v37 : S1x1.Idx → EReal) (ix2 0 0) := by
  obtain ⟨-, -, -, -, -, -, -, -, -, -, -, -, -, -, e0, e1, -⟩ := idx_facts1 t
  unfold iblk1
  rw [View.read_apply]
  show (V c main_v37 : S1x1.Idx → EReal) _ = _
  refine congrArg _ (funext fun a => Fin.ext ?_)
  match a with
  | ⟨0, _⟩ => show win1_7.index t (0 : Fin 2) * 1 + 1 * 0 = 0; rw [e0]
  | ⟨1, _⟩ => show win1_7.index t (1 : Fin 2) * 1 + 1 * 0 = 0; rw [e1]

/-- What point `t` writes back is block `t` of the result array. -/
theorem flushed1 (c : Dev nD) (t : Fin cfg1.N) :
    (dat1 V c).flushed 8 t = ((cfg1.win 8).blk t).view.read (Elt Ideal)
      (headArr (V c main_v22) (V c main_v32) (V c main_v8) (V c main_v33) (V c main_v35) (V c main_v34) (V c main_v36) (V c main_v37)) := by
  show (cfg1.win 8).cut (grid1.coords t) ((dat1 V c).after 8 t) = _
  rw [after1_8]
  unfold out1_8
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x1) hz, View.ld_unit_zero (S := S1x1) hz]
  obtain ⟨-, -, -, -, -, -, -, -, -, -, -, -, -, -, -, -, e0, e1⟩ := idx_facts1 t
  have hN : cfg1.N = 10 := N_1
  have ht : t.val < 10 := hN ▸ t.isLt
  funext y
  have hy0 : (y 0).val < 5000 := (y 0).isLt
  have hy1 : (y 1).val < 1 := (y 1).isLt
  have hx : (win1 8).xinj (grid1.coords t) y = ix2 (⟨(y 0).val, hy0⟩ : Fin 5000) (0 : Fin 1) :=
    funext fun a => by
      match a with
      | ⟨0, _⟩ => rfl
      | ⟨1, _⟩ => exact Fin.ext (by show (y 1).val = 0; omega)
  have he : ((View.whole main_v38).slice ((win1 8).rect t)).emb y
      = ix2 (⟨t.val * 5000 + (y 0).val, by omega⟩ : Fin 50000) (0 : Fin 1) :=
    funext fun a => Fin.ext (by
      match a with
      | ⟨0, _⟩ => show win1_8.index t (0 : Fin 2) * 5000 + 1 * (y 0).val = t.val * 5000 + (y 0).val; rw [e0]; omega
      | ⟨1, _⟩ => show win1_8.index t (1 : Fin 2) * 1 + 1 * (y 1).val = 0; rw [e1]; omega)
  show Gen.k1_pay1 (F := Ideal) (iblk1 V c 2 t) (iblk1 V c 1 t) (iblk1 V c 0 t) (iblk1 V c 3 t) (iblk1 V c 5 t) (iblk1 V c 4 t)
      (iblk1 V c 6 t) (iblk1 V c 7 t) ((win1 8).xinj (grid1.coords t) y) = _
  rw [hx, View.read_apply, he]
  refine (pay1_apply (iblk1 V c 2 t) (iblk1 V c 1 t) (iblk1 V c 0 t) (iblk1 V c 3 t) (iblk1 V c 5 t) (iblk1 V c 4 t)
    (iblk1 V c 6 t) (iblk1 V c 7 t) _ _).trans ?_
  refine congrArg₂ (· + ·) (Finset.sum_congr rfl fun k _ => congrArg₂ (· * ·) ?_ (blk1_6 V c t k)) (blk1_7 V c t)
  exact sageEntry_congr (fun k' => blk1_1 V c t _ k' _ rfl) (fun k' => blk1_0 V c t _ k' _ rfl) (blk1_2 V c t _ _ rfl)
    (fun k' => blk1_3 V c t k' _) (fun k' => blk1_5 V c t k' _) (blk1_4 V c t _)

/-- The ten blocks tile the rows, so the result array ends holding the head of every row. -/
theorem final1 (c : Dev nD) : (dat1 V c).arrAt 8 cfg1.N
    = headArr (V c main_v22) (V c main_v32) (V c main_v8) (V c main_v33) (V c main_v35) (V c main_v34) (V c main_v36) (V c main_v37) :=
  (dat1 V c).arrAt_eq_of_cover 8 _ (fun t _ => flushed1 V c t) fun i => by
    have hi0 : (i 0).val < 50000 := (i 0).isLt
    have hi1 : (i 1).val < 1 := (i 1).isLt
    have hN : cfg1.N = 10 := N_1
    obtain ⟨t, ht⟩ : ∃ t : Fin cfg1.N, t.val = (i 0).val / 5000 := ⟨⟨(i 0).val / 5000, by rw [hN]; omega⟩, rfl⟩
    obtain ⟨-, -, -, -, -, -, -, -, -, -, -, -, -, -, -, -, e0, e1⟩ := idx_facts1 t
    refine ⟨t, flush1_8 t, ?_⟩
    show i ∈ ((View.whole main_v38).slice (win1_8.rect t)).set
    rw [View.set_slice_whole, Rect.mem_set_unit]
    intro a
    match a with
    | ⟨0, _⟩ =>
      show win1_8.index t (0 : Fin 2) * 5000 ≤ (i 0).val ∧ (i 0).val < win1_8.index t (0 : Fin 2) * 5000 + 5000
      rw [e0, ht]; omega
    | ⟨1, _⟩ =>
      show win1_8.index t (1 : Fin 2) * 1 ≤ (i 1).val ∧ (i 1).val < win1_8.index t (1 : Fin 2) * 1 + 1
      rw [e1]; omega

end Cert.Sage

end
-- ==== Proof.SpecFold.lean ====
/-
  The function both programs compute, and the kernel's fold read at its result.

  With `src` and `dst` the two rows of the edge list (a negative source wrapped by the node count), a layer takes
  node features `h` to the layer entries of: `h` itself; the neighbour sums, the rows `h[src e]` added into row `dst e`
  of a zero array; the in-degrees, ones added into entry `dst e` of a zero vector, as a column; the two weight
  matrices transposed; the bias as a row.  The result is the head of the second layer of the first layer of the input
  features.  The kernel prepares exactly these arrays on the host before each region, so its fold, read at the result
  buffer through the two regions' output arrays, is this function of the launch contents of the arguments.
-/
import proofs.«123944_j59854664237698_1_alg».proof.Proof.Blocks1
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.Sage

open Cert.KernelIdeal Cert.KernelIdeal.Gen

abbrev I32 (s : Shape) : Type := (⟨s, .i32⟩ : BufTy).Contents (Elt Ideal)
abbrev F32 (s : Shape) : Type := (⟨s, .f32⟩ : BufTy).Contents (Elt Ideal)

/-- The edges' source nodes: row 0 of the edge list. -/
def srcOf (e : I32 S2x800000) : I32 S800000 :=
  shapeCast _ (extractStridedSlice S1x800000 ![0, 0] e Gen.slices_S2x800000_S1x800000_0_0) Gen.shapeCasts_S1x800000_S800000

/-- The edges' destination nodes: row 1 of the edge list. -/
def dstOf (e : I32 S2x800000) : I32 S800000 :=
  shapeCast _ (extractStridedSlice S1x800000 ![1, 0] e Gen.slices_S2x800000_S1x800000_1_0) Gen.shapeCasts_S1x800000_S800000

/-- The sources as a column of row indices, a negative one wrapped by the node count. -/
def srcCol (e : I32 S2x800000) : I32 S800000x1 :=
  broadcastInDim S800000x1 ![0] Gen.bcast_S800000_S800000x1_0
    (select (cmpi .slt (srcOf e) (broadcastInDim S800000 ![] Gen.bcast_S_S800000 (constantI S_ 32 0#32)))
      (addi (srcOf e) (broadcastInDim S800000 ![] Gen.bcast_S_S800000 (constantI S_ 32 50000#32))) (srcOf e))

/-- The destinations as a column of row indices. -/
def dstCol (e : I32 S2x800000) : I32 S800000x1 :=
  broadcastInDim S800000x1 ![0] Gen.bcast_S800000_S800000x1_0 (dstOf e)

/-- Neighbour sums: each edge's source row of `h` added into its destination row of a zero array. -/
def nbrSum (h : F32 S50000x64) (e : I32 S2x800000) : F32 S50000x64 :=
  Host.scatterAdd scatter_S50000x64_S800000x1_S800000x64_1_0_0_1
    (broadcastInDim S50000x64 ![] Gen.bcast_S_S50000x64 (constant (F := Ideal) S_ .f32 0x00000000#32)) (dstCol e)
    (Host.gather gather_S50000x64_S800000x1_S800000x64_1_0_n_n_0_1_164 h (srcCol e))

/-- In-degrees: a one added per edge into its destination's entry of a zero vector. -/
def inDeg (e : I32 S2x800000) : F32 S50000 :=
  Host.scatterAdd scatter_S50000_S800000x1_S800000_n_0_0_1
    (broadcastInDim S50000 ![] Gen.bcast_S_S50000 (constant (F := Ideal) S_ .f32 0x00000000#32)) (dstCol e)
    (broadcastInDim S800000 ![] Gen.bcast_S_S800000 (constant (F := Ideal) S_ .f32 0x3F800000#32))

/-- The in-degrees as a column. -/
def degCol (e : I32 S2x800000) : F32 S50000x1 := shapeCast _ (inDeg e) Gen.shapeCasts_S50000_S50000x1

/-- One layer: the layer entries of `h`, its neighbour sums, the in-degree column, the transposed weights and the bias row. -/
def layerSpec (h : F32 S50000x64) (e : I32 S2x800000) (Wl : F32 S64x64) (b : F32 S64) (Wr : F32 S64x64) : F32 S50000x64 :=
  layerArr h (nbrSum h e) (degCol e) (transpose S64x64 [1, 0] Wl Gen.transposes_S64x64_S64x64_1_0)
    (shapeCast _ b Gen.shapeCasts_S64_S1x64) (transpose S64x64 [1, 0] Wr Gen.transposes_S64x64_S64x64_1_0)

/-- A layer followed by the head. -/
def headSpec (h : F32 S50000x64) (e : I32 S2x800000) (Wl : F32 S64x64) (b : F32 S64) (Wr : F32 S64x64) (Wf : F32 S1x64)
    (bf : F32 S1) : F32 S50000x1 :=
  headArr h (nbrSum h e) (degCol e) (transpose S64x64 [1, 0] Wl Gen.transposes_S64x64_S64x64_1_0)
    (shapeCast _ b Gen.shapeCasts_S64_S1x64) (transpose S64x64 [1, 0] Wr Gen.transposes_S64x64_S64x64_1_0)
    (transpose S64x1 [1, 0] Wf Gen.transposes_S1x64_S64x1_1_0) (shapeCast _ bf Gen.shapeCasts_S1_S1x1)

/-- The whole computation: two layers and the head. -/
def G (x : F32 S50000x64) (e : I32 S2x800000) (Wl1 : F32 S64x64) (bl1 : F32 S64) (Wr1 Wl2 : F32 S64x64) (bl2 : F32 S64)
    (Wr2 : F32 S64x64) (Wf : F32 S1x64) (bf : F32 S1) : F32 S50000x1 :=
  headSpec (layerSpec x e Wl1 bl1 Wr1) e Wl2 bl2 Wr2 Wf bf

variable (m : (ℓ : Loc nD τ sig) → Buf (Elt Ideal) ℓ) (ρ : Dev nD → PrngReg)

/-! ## The first stretch: what the first region finds -/

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_v1 (c : Dev nD) : V1 m ρ c main_v1 = srcOf (m ((c : Thread nD τ).loc main_arg1)) := by
  show StableHlo.after hostOps0 (W0 m ρ c) (Proc.devRef .tc main_v1) = _
  after_results_simp <;> rfl

theorem V1_v3 (c : Dev nD) : V1 m ρ c main_v3 = dstOf (m ((c : Thread nD τ).loc main_arg1)) := by
  show StableHlo.after hostOps0 (W0 m ρ c) (Proc.devRef .tc main_v3) = _
  after_results_simp <;> rfl

theorem V1_v18 (c : Dev nD) : V1 m ρ c main_v18 = nbrSum (m ((c : Thread nD τ).loc main_arg0)) (m ((c : Thread nD τ).loc main_arg1)) := by
  show StableHlo.after hostOps0 (W0 m ρ c) (Proc.devRef .tc main_v18) = _
  after_results_simp <;> rfl

theorem V1_v8 (c : Dev nD) : V1 m ρ c main_v8 = degCol (m ((c : Thread nD τ).loc main_arg1)) := by
  show StableHlo.after hostOps0 (W0 m ρ c) (Proc.devRef .tc main_v8) = _
  after_results_simp <;> rfl

theorem V1_v19 (c : Dev nD) : V1 m ρ c main_v19 = transpose S64x64 [1, 0] (m ((c : Thread nD τ).loc main_arg2)) Gen.transposes_S64x64_S64x64_1_0 := by
  show StableHlo.after hostOps0 (W0 m ρ c) (Proc.devRef .tc main_v19) = _
  after_results_simp <;> rfl

theorem V1_v20 (c : Dev nD) : V1 m ρ c main_v20 = transpose S64x64 [1, 0] (m ((c : Thread nD τ).loc main_arg4)) Gen.transposes_S64x64_S64x64_1_0 := by
  show StableHlo.after hostOps0 (W0 m ρ c) (Proc.devRef .tc main_v20) = _
  after_results_simp <;> rfl

theorem V1_v21 (c : Dev nD) : V1 m ρ c main_v21 = shapeCast _ (m ((c : Thread nD τ).loc main_arg3)) Gen.shapeCasts_S64_S1x64 := by
  show StableHlo.after hostOps0 (W0 m ρ c) (Proc.devRef .tc main_v21) = _
  after_results_simp <;> rfl

theorem V1_arg5 (c : Dev nD) : V1 m ρ c main_arg5 = m ((c : Thread nD τ).loc main_arg5) := by
  show StableHlo.after hostOps0 (W0 m ρ c) (Proc.devRef .tc main_arg5) = _
  after_results_simp <;> rfl

theorem V1_arg6 (c : Dev nD) : V1 m ρ c main_arg6 = m ((c : Thread nD τ).loc main_arg6) := by
  show StableHlo.after hostOps0 (W0 m ρ c) (Proc.devRef .tc main_arg6) = _
  after_results_simp <;> rfl

theorem V1_arg7 (c : Dev nD) : V1 m ρ c main_arg7 = m ((c : Thread nD τ).loc main_arg7) := by
  show StableHlo.after hostOps0 (W0 m ρ c) (Proc.devRef .tc main_arg7) = _
  after_results_simp <;> rfl

theorem V1_arg8 (c : Dev nD) : V1 m ρ c main_arg8 = m ((c : Thread nD τ).loc main_arg8) := by
  show StableHlo.after hostOps0 (W0 m ρ c) (Proc.devRef .tc main_arg8) = _
  after_results_simp <;> rfl

theorem V1_arg9 (c : Dev nD) : V1 m ρ c main_arg9 = m ((c : Thread nD τ).loc main_arg9) := by
  show StableHlo.after hostOps0 (W0 m ρ c) (Proc.devRef .tc main_arg9) = _
  after_results_simp <;> rfl

/-! ## The first region's exit: its output array holds the first layer; everything else is as the region found it -/

theorem V2_v22 (c : Dev nD) : W2 m ρ c (Proc.devRef .tc main_v22) = (layerSpec (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 6).trans ?_
  rw [final0 (V1 m ρ) c, V1_arg0, V1_v18, V1_v8, V1_v19, V1_v21, V1_v20]
  rfl

theorem V2_v8 (c : Dev nD) : W2 m ρ c (Proc.devRef .tc main_v8) = degCol (m ((c : Thread nD τ).loc main_arg1)) :=
  ((W2_arr m ρ c 2).trans (((dat0 (V1 m ρ) c).arrAt_in 2 rfl _).trans (A_eq0 (V1 m ρ) c 2))).trans (V1_v8 m ρ c)

theorem V2_v1 (c : Dev nD) : W2 m ρ c (Proc.devRef .tc main_v1) = srcOf (m ((c : Thread nD τ).loc main_arg1)) :=
  (W2_of_ne m ρ c main_v1 (by decide)).trans (V1_v1 m ρ c)

theorem V2_v3 (c : Dev nD) : W2 m ρ c (Proc.devRef .tc main_v3) = dstOf (m ((c : Thread nD τ).loc main_arg1)) :=
  (W2_of_ne m ρ c main_v3 (by decide)).trans (V1_v3 m ρ c)

theorem V2_arg5 (c : Dev nD) : W2 m ρ c (Proc.devRef .tc main_arg5) = m ((c : Thread nD τ).loc main_arg5) :=
  (W2_of_ne m ρ c main_arg5 (by decide)).trans (V1_arg5 m ρ c)

theorem V2_arg6 (c : Dev nD) : W2 m ρ c (Proc.devRef .tc main_arg6) = m ((c : Thread nD τ).loc main_arg6) :=
  (W2_of_ne m ρ c main_arg6 (by decide)).trans (V1_arg6 m ρ c)

theorem V2_arg7 (c : Dev nD) : W2 m ρ c (Proc.devRef .tc main_arg7) = m ((c : Thread nD τ).loc main_arg7) :=
  (W2_of_ne m ρ c main_arg7 (by decide)).trans (V1_arg7 m ρ c)

theorem V2_arg8 (c : Dev nD) : W2 m ρ c (Proc.devRef .tc main_arg8) = m ((c : Thread nD τ).loc main_arg8) :=
  (W2_of_ne m ρ c main_arg8 (by decide)).trans (V1_arg8 m ρ c)

theorem V2_arg9 (c : Dev nD) : W2 m ρ c (Proc.devRef .tc main_arg9) = m ((c : Thread nD τ).loc main_arg9) :=
  (W2_of_ne m ρ c main_arg9 (by decide)).trans (V1_arg9 m ρ c)

/-! ## The second stretch: what the second region finds -/

theorem V3_v22 (c : Dev nD) : V3 m ρ c main_v22 = (layerSpec (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v22) = _
  after_results_simp
  rw [V2_v22] <;> rfl

theorem V3_v8 (c : Dev nD) : V3 m ρ c main_v8 = degCol (m ((c : Thread nD τ).loc main_arg1)) := by
  show StableHlo.after hostOps1 (W2 m ρ c) (Proc.devRef .tc main_v8) = _
  after_results_simp
  rw [V2_v8] <;> rfl

theorem V3_v32 (c : Dev nD) : V3 m ρ c main_v32 = nbrSum (layerSpec (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v32) = _
  after_results_simp
  rw [V2_v22, V2_v1, V2_v3] <;> rfl

theorem V3_v33 (c : Dev nD) : V3 m ρ c main_v33 = transpose S64x64 [1, 0] (m ((c : Thread nD τ).loc main_arg5)) Gen.transposes_S64x64_S64x64_1_0 := by
  show StableHlo.after hostOps1 (W2 m ρ c) (Proc.devRef .tc main_v33) = _
  after_results_simp
  rw [V2_arg5] <;> rfl

theorem V3_v34 (c : Dev nD) : V3 m ρ c main_v34 = transpose S64x64 [1, 0] (m ((c : Thread nD τ).loc main_arg7)) Gen.transposes_S64x64_S64x64_1_0 := by
  show StableHlo.after hostOps1 (W2 m ρ c) (Proc.devRef .tc main_v34) = _
  after_results_simp
  rw [V2_arg7] <;> rfl

theorem V3_v35 (c : Dev nD) : V3 m ρ c main_v35 = shapeCast _ (m ((c : Thread nD τ).loc main_arg6)) Gen.shapeCasts_S64_S1x64 := by
  show StableHlo.after hostOps1 (W2 m ρ c) (Proc.devRef .tc main_v35) = _
  after_results_simp
  rw [V2_arg6] <;> rfl

theorem V3_v36 (c : Dev nD) : V3 m ρ c main_v36 = transpose S64x1 [1, 0] (m ((c : Thread nD τ).loc main_arg8)) Gen.transposes_S1x64_S64x1_1_0 := by
  show StableHlo.after hostOps1 (W2 m ρ c) (Proc.devRef .tc main_v36) = _
  after_results_simp
  rw [V2_arg8] <;> rfl

theorem V3_v37 (c : Dev nD) : V3 m ρ c main_v37 = shapeCast _ (m ((c : Thread nD τ).loc main_arg9)) Gen.shapeCasts_S1_S1x1 := by
  show StableHlo.after hostOps1 (W2 m ρ c) (Proc.devRef .tc main_v37) = _
  after_results_simp
  rw [V2_arg9] <;> rfl

/-! ## The result -/

/-- The fold's last stage at the result buffer is the whole computation of the launch contents of the arguments. -/
theorem W4_result (c : Dev nD) : W4 m ρ c (Proc.devRef .tc main_v38)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 8).trans ?_
  rw [final1 (V3 m ρ) c, V3_v22, V3_v32, V3_v8, V3_v33, V3_v35, V3_v34, V3_v36, V3_v37]
  rfl

end Cert.Sage

end
-- ==== Proof.LibColumnCast.lean ====
/-
  A vector laid out as a one-column matrix.

  An array of `a` entries re-read with shape `[a, 1]` keeps its row-major order, so the entry at row `i` of its one
  column is the vector's entry `i`.
-/
import Idealize.ShloMosaic.Lib.Pipeline.Value
import Idealize.ShloMosaic.Lib.ValueIdx

noncomputable section

namespace Cert.LibColumnCast

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast

end
-- ==== Proof.RefValue.lean ====
/-
  The reference computes the same function.

  Its program is the host form of the same two layers and head: the same gather of source rows and scatter-add into
  destination rows (so its neighbour sums and in-degrees are the kernel's, as whole arrays), a division by the
  in-degree clipped at one spread along each row, a product against the transposed weights, a bias spread down the rows,
  a second product, a clip at zero; then the head's product and bias.  Read at an index, a host product is the sum over
  the contracted axis, every spread reads its operand at the row or the column, and each transposed or reshaped array
  reads its operand at the swapped or the flat index; entry by entry that is the layer entry, and the head of it.
-/
import proofs.«123944_j59854664237698_1_alg».proof.Proof.SpecFold
import proofs.«123944_j59854664237698_1_alg».proof.Proof.LibColumnCast
import proofs.«123944_j59854664237698_1_alg».proof.Proof.Gen.ReferenceIdeal.Read
import Idealize.ShloMosaic.Lib.ValueLayout

set_option maxRecDepth 16384

noncomputable section

open scoped BigOperators
open Idealize.ShloMosaic Idealize.ShloMosaic.TcCoe Idealize.ShloMosaic.ValueIdx

namespace Cert.Sage

open Cert.KernelIdeal Cert.KernelIdeal.Gen Cert.ReferenceIdeal.Read

/-! ## The reference's gathers and scatter-adds are the kernel's -/

theorem ref_nbr1 (x0 : F32 S50000x64) (x1 : I32 S2x800000) : val_main_v13 (F := Ideal) x0 x1 = nbrSum x0 x1 := rfl
theorem ref_deg1 (x1 : I32 S2x800000) : val_main_v17 (F := Ideal) x1 = inDeg x1 := rfl
theorem ref_nbr2 (x0 : F32 S50000x64) (x1 : I32 S2x800000) (x2 : F32 S64x64) (x3 : F32 S64) (x4 : F32 S64x64) :
    val_main_v41 (F := Ideal) x0 x1 x2 x3 x4 = nbrSum (val_main_v31 (F := Ideal) x0 x1 x2 x3 x4) x1 := rfl
theorem ref_deg2 (x1 : I32 S2x800000) : val_main_v45 (F := Ideal) x1 = inDeg x1 := rfl

/-! ## The prepared arrays read at an index -/

/-- A transposed weight matrix at `(k, j)` is the matrix at `(j, k)`. -/
theorem tr64 (W : F32 S64x64) (k j : Fin 64) :
    transpose S64x64 [1, 0] W Gen.transposes_S64x64_S64x64_1_0 (ix2 k j) = W (ix2 j k) :=
  transpose_apply [1, 0] W Gen.transposes_S64x64_S64x64_1_0 (ix2 k j) (ix2 j k) (fun b => match b with
    | ⟨0, _⟩ => rfl
    | ⟨1, _⟩ => rfl)

/-- The head's weight row transposed to a column. -/
theorem trHead (W : F32 S1x64) (k : Fin 64) (u : Fin 1) :
    transpose S64x1 [1, 0] W Gen.transposes_S1x64_S64x1_1_0 (ix2 k u) = W (ix2 u k) :=
  transpose_apply [1, 0] W Gen.transposes_S1x64_S64x1_1_0 (ix2 k u) (ix2 u k) (fun b => match b with
    | ⟨0, _⟩ => rfl
    | ⟨1, _⟩ => rfl)

/-- The in-degree column at row `p` is the in-degree of node `p`. -/
theorem degCol_apply (e : I32 S2x800000) (p : Fin 50000) (u : Fin 1) : degCol e (ix2 p u) = inDeg e (ix1 p) :=
  Cert.LibColumnCast.shapeCast_a_a1_apply (inDeg e) Gen.shapeCasts_S50000_S50000x1 p u

/-- A bias laid out as a row. -/
theorem biasRow_apply (b : F32 S64) (u : Fin 1) (j : Fin 64) : shapeCast _ b Gen.shapeCasts_S64_S1x64 (ix2 u j) = b (ix1 j) :=
  shapeCast_a_1a_apply b Gen.shapeCasts_S64_S1x64 u j

/-- The head's bias laid out as a one-entry matrix. -/
theorem biasOne_apply (b : F32 S1) (u v : Fin 1) : shapeCast _ b Gen.shapeCasts_S1_S1x1 (ix2 u v) = b (ix1 v) :=
  shapeCast_a_1a_apply b Gen.shapeCasts_S1_S1x1 u v

/-! ## The reference's index maps at a row and a column -/

theorem lidx_v24 (p : Fin 50000) (j k : Fin 64) : lidx_main_v24 (ix2 p j) k = ix2 p k :=
  funext fun a => by
    match a with
    | ⟨0, _⟩ => rfl
    | ⟨1, _⟩ => rfl

theorem ridx_v24 (p : Fin 50000) (j k : Fin 64) : ridx_main_v24 (ix2 p j) k = ix2 k j :=
  funext fun a => by
    match a with
    | ⟨0, _⟩ => rfl
    | ⟨1, _⟩ => rfl

theorem lidx_v29 (p : Fin 50000) (j k : Fin 64) : lidx_main_v29 (ix2 p j) k = ix2 p k :=
  funext fun a => by
    match a with
    | ⟨0, _⟩ => rfl
    | ⟨1, _⟩ => rfl

theorem ridx_v29 (p : Fin 50000) (j k : Fin 64) : ridx_main_v29 (ix2 p j) k = ix2 k j :=
  funext fun a => by
    match a with
    | ⟨0, _⟩ => rfl
    | ⟨1, _⟩ => rfl

theorem idx_v23 (k j : Fin 64) : idx_main_v23 (ix2 k j) = ix2 j k :=
  funext fun a => by
    match a with
    | ⟨0, _⟩ => rfl
    | ⟨1, _⟩ => rfl

theorem idx_v28 (k j : Fin 64) : idx_main_v28 (ix2 k j) = ix2 j k :=
  funext fun a => by
    match a with
    | ⟨0, _⟩ => rfl
    | ⟨1, _⟩ => rfl

theorem idx_v21 (p : Fin 50000) (k : Fin 64) : idx_main_v21 (ix2 p k) = ix2 p (0 : Fin 1) :=
  funext fun a => by
    match a with
    | ⟨0, _⟩ => rfl
    | ⟨1, _⟩ => rfl

theorem idx_v20 (p : Fin 50000) (u : Fin 1) : idx_main_v20 (ix2 p u) = ix1 p :=
  funext fun a => by
    match a with
    | ⟨0, _⟩ => rfl

theorem idx_v26 (p : Fin 50000) (j : Fin 64) : idx_main_v26 (ix2 p j) = ix2 (0 : Fin 1) j :=
  funext fun a => by
    match a with
    | ⟨0, _⟩ => rfl
    | ⟨1, _⟩ => rfl

theorem idx_v25 (u : Fin 1) (j : Fin 64) : idx_main_v25 (ix2 u j) = ix1 j :=
  funext fun a => by
    match a with
    | ⟨0, _⟩ => rfl

theorem lidx_v52 (p : Fin 50000) (j k : Fin 64) : lidx_main_v52 (ix2 p j) k = ix2 p k :=
  funext fun a => by
    match a with
    | ⟨0, _⟩ => rfl
    | ⟨1, _⟩ => rfl

theorem ridx_v52 (p : Fin 50000) (j k : Fin 64) : ridx_main_v52 (ix2 p j) k = ix2 k j :=
  funext fun a => by
    match a with
    | ⟨0, _⟩ => rfl
    | ⟨1, _⟩ => rfl

theorem lidx_v57 (p : Fin 50000) (j k : Fin 64) : lidx_main_v57 (ix2 p j) k = ix2 p k :=
  funext fun a => by
    match a with
    | ⟨0, _⟩ => rfl
    | ⟨1, _⟩ => rfl

theorem ridx_v57 (p : Fin 50000) (j k : Fin 64) : ridx_main_v57 (ix2 p j) k = ix2 k j :=
  funext fun a => by
    match a with
    | ⟨0, _⟩ => rfl
    | ⟨1, _⟩ => rfl

theorem idx_v51 (k j : Fin 64) : idx_main_v51 (ix2 k j) = ix2 j k :=
  funext fun a => by
    match a with
    | ⟨0, _⟩ => rfl
    | ⟨1, _⟩ => rfl

theorem idx_v56 (k j : Fin 64) : idx_main_v56 (ix2 k j) = ix2 j k :=
  funext fun a => by
    match a with
    | ⟨0, _⟩ => rfl
    | ⟨1, _⟩ => rfl

theorem idx_v49 (p : Fin 50000) (k : Fin 64) : idx_main_v49 (ix2 p k) = ix2 p (0 : Fin 1) :=
  funext fun a => by
    match a with
    | ⟨0, _⟩ => rfl
    | ⟨1, _⟩ => rfl

theorem idx_v48 (p : Fin 50000) (u : Fin 1) : idx_main_v48 (ix2 p u) = ix1 p :=
  funext fun a => by
    match a with
    | ⟨0, _⟩ => rfl

theorem idx_v54 (p : Fin 50000) (j : Fin 64) : idx_main_v54 (ix2 p j) = ix2 (0 : Fin 1) j :=
  funext fun a => by
    match a with
    | ⟨0, _⟩ => rfl
    | ⟨1, _⟩ => rfl

theorem idx_v53 (u : Fin 1) (j : Fin 64) : idx_main_v53 (ix2 u j) = ix1 j :=
  funext fun a => by
    match a with
    | ⟨0, _⟩ => rfl

/-! ## The layers -/

/-- The reference's first layer, entry by entry, is the layer of the input features. -/
theorem ref_layer1 (x0 : F32 S50000x64) (x1 : I32 S2x800000) (x2 : F32 S64x64) (x3 : F32 S64) (x4 : F32 S64x64) :
    val_main_v31 (F := Ideal) x0 x1 x2 x3 x4 = layerSpec x0 x1 x2 x3 x4 := by
  funext i
  obtain ⟨p, j, rfl⟩ : ∃ (p : Fin 50000) (j : Fin 64), i = ix2 p j := ⟨i 0, i 1, eq_ix2 i⟩
  show _ = sageEntry (fun k => nbrSum x0 x1 (ix2 p k)) (fun k => x0 (ix2 p k)) (degCol x1 (ix2 p 0))
    (fun k => transpose S64x64 [1, 0] x2 Gen.transposes_S64x64_S64x64_1_0 (ix2 k j))
    (fun k => transpose S64x64 [1, 0] x4 Gen.transposes_S64x64_S64x64_1_0 (ix2 k j))
    (shapeCast _ x3 Gen.shapeCasts_S64_S1x64 (ix2 0 j))
  unfold sageEntry
  rw [val_main_v31_apply, val_main_v30_apply, val_main_v27_apply, val_main_v24_apply, val_main_v29_apply,
    val_main_call0_v0_apply, val_main_call0_cst_apply]
  refine congrArg₂ max (congrArg₂ (· + ·) (congrArg₂ (· + ·) (Finset.sum_congr rfl fun k _ => ?_) ?_)
    (Finset.sum_congr rfl fun k _ => ?_)) rfl
  · beta_reduce
    rw [lidx_v24 p j k, ridx_v24 p j k, val_main_v22_apply, val_main_v21_apply, idx_v21 p k, val_main_v20_apply,
      idx_v20 p 0, val_main_v19_apply, val_main_v18_apply, val_main_cst_3_apply, val_main_v23_apply, idx_v23 k j,
      ref_nbr1, ref_deg1, tr64, degCol_apply]
    rfl
  · rw [val_main_v26_apply, idx_v26 p j, val_main_v25_apply, idx_v25 0 j, biasRow_apply]
  · beta_reduce
    rw [lidx_v29 p j k, ridx_v29 p j k, val_main_v28_apply, idx_v28 k j, tr64]

/-- The reference's second layer, entry by entry, is the layer of its first layer's output. -/
theorem ref_layer2 (x0 : F32 S50000x64) (x1 : I32 S2x800000) (x2 : F32 S64x64) (x3 : F32 S64) (x4 x5 : F32 S64x64) (x6 : F32 S64) (x7 : F32 S64x64) :
    val_main_v59 (F := Ideal) x0 x1 x2 x3 x4 x5 x6 x7 = layerSpec (val_main_v31 (F := Ideal) x0 x1 x2 x3 x4) x1 x5 x6 x7 := by
  funext i
  obtain ⟨p, j, rfl⟩ : ∃ (p : Fin 50000) (j : Fin 64), i = ix2 p j := ⟨i 0, i 1, eq_ix2 i⟩
  show _ = sageEntry (fun k => nbrSum (val_main_v31 (F := Ideal) x0 x1 x2 x3 x4) x1 (ix2 p k)) (fun k => (val_main_v31 (F := Ideal) x0 x1 x2 x3 x4) (ix2 p k)) (degCol x1 (ix2 p 0))
    (fun k => transpose S64x64 [1, 0] x5 Gen.transposes_S64x64_S64x64_1_0 (ix2 k j))
    (fun k => transpose S64x64 [1, 0] x7 Gen.transposes_S64x64_S64x64_1_0 (ix2 k j))
    (shapeCast _ x6 Gen.shapeCasts_S64_S1x64 (ix2 0 j))
  unfold sageEntry
  rw [val_main_v59_apply, val_main_v58_apply, val_main_v55_apply, val_main_v52_apply, val_main_v57_apply,
    val_main_call1_v0_apply, val_main_call1_cst_apply]
  refine congrArg₂ max (congrArg₂ (· + ·) (congrArg₂ (· + ·) (Finset.sum_congr rfl fun k _ => ?_) ?_)
    (Finset.sum_congr rfl fun k _ => ?_)) rfl
  · beta_reduce
    rw [lidx_v52 p j k, ridx_v52 p j k, val_main_v50_apply, val_main_v49_apply, idx_v49 p k, val_main_v48_apply,
      idx_v48 p 0, val_main_v47_apply, val_main_v46_apply, val_main_cst_9_apply, val_main_v51_apply, idx_v51 k j,
      ref_nbr2, ref_deg2, tr64, degCol_apply]
    rfl
  · rw [val_main_v54_apply, idx_v54 p j, val_main_v53_apply, idx_v53 0 j, biasRow_apply]
  · beta_reduce
    rw [lidx_v57 p j k, ridx_v57 p j k, val_main_v56_apply, idx_v56 k j, tr64]

/-! ## The head -/

theorem lidx_v61 (p : Fin 50000) (u : Fin 1) (k : Fin 64) : lidx_main_v61 (ix2 p u) k = ix2 p k :=
  funext fun a => by
    match a with
    | ⟨0, _⟩ => rfl
    | ⟨1, _⟩ => rfl

theorem ridx_v61 (p : Fin 50000) (u : Fin 1) (k : Fin 64) : ridx_main_v61 (ix2 p u) k = ix2 k u :=
  funext fun a => by
    match a with
    | ⟨0, _⟩ => rfl
    | ⟨1, _⟩ => rfl

theorem idx_v60 (k : Fin 64) (u : Fin 1) : idx_main_v60 (ix2 k u) = ix2 u k :=
  funext fun a => by
    match a with
    | ⟨0, _⟩ => rfl
    | ⟨1, _⟩ => rfl

theorem idx_v63 (p : Fin 50000) (u : Fin 1) : idx_main_v63 (ix2 p u) = ix2 (0 : Fin 1) (0 : Fin 1) :=
  funext fun a => by
    match a with
    | ⟨0, _⟩ => rfl
    | ⟨1, _⟩ => rfl

theorem idx_v62 (u v : Fin 1) : idx_main_v62 (ix2 u v) = ix1 (0 : Fin 1) :=
  funext fun a => by
    match a with
    | ⟨0, _⟩ => rfl

/-- The reference's result, entry by entry, is the head of the second layer of the first layer of the input. -/
theorem ref_value (x0 : F32 S50000x64) (x1 : I32 S2x800000) (x2 : F32 S64x64) (x3 : F32 S64) (x4 x5 : F32 S64x64) (x6 : F32 S64)
    (x7 : F32 S64x64) (x8 : F32 S1x64) (x9 : F32 S1) :
    val_main_v64 (F := Ideal) x0 x1 x2 x3 x4 x5 x6 x7 x8 x9 = G x0 x1 x2 x3 x4 x5 x6 x7 x8 x9 := by
  funext i
  obtain ⟨p, u, rfl⟩ : ∃ (p : Fin 50000) (u : Fin 1), i = ix2 p u := ⟨i 0, i 1, eq_ix2 i⟩
  obtain rfl : u = 0 := Subsingleton.elim _ _
  show _ = (∑ k : Fin 64, layerSpec (layerSpec x0 x1 x2 x3 x4) x1 x5 x6 x7 (ix2 p k)
      * transpose S64x1 [1, 0] x8 Gen.transposes_S1x64_S64x1_1_0 (ix2 k 0)) + shapeCast _ x9 Gen.shapeCasts_S1_S1x1 (ix2 0 0)
  rw [val_main_v64_apply, val_main_v61_apply]
  refine congrArg₂ (· + ·) (Finset.sum_congr rfl fun k _ => ?_) ?_
  · rw [lidx_v61 p 0 k, ridx_v61 p 0 k, val_main_v60_apply, idx_v60 k 0, ref_layer2, ref_layer1, trHead]
  · rw [val_main_v63_apply, idx_v63 p 0, val_main_v62_apply, idx_v62 0 0, biasOne_apply]

end Cert.Sage

end
-- ==== Proof.lean ====
/-
  A two-layer neighbour-averaging graph network with a linear head, tiled over row blocks with the gathers and
  scatter-adds on the host, against its plain host reference: equal on the extended reals.

  Each layer sends node features `h` to `max (mean · Wlᵀ + bl + h · Wrᵀ) 0`, where row `p` of `mean` is the sum of the
  rows `h[src e]` over the edges `e` with `dst e = p`, divided by the number of such edges clipped below at one; the head is
  `h₂ · Wfᵀ + bf`.  The kernel computes the neighbour sums and the in-degrees on the host, runs each layer as a region
  over ten blocks of 5000 rows (the second region also applies the head), and gathers the first region's output for the
  second layer between the two.  On the extended reals its narrowing of the products' operands is the identity and a
  product into a zero accumulator is the sum over the contracted axis, so each block row is the layer entry of that row
  (Entry); the blocks tile the rows, so each region's output array is the layer, respectively the head, of the arrays the
  region finds (Blocks0, Blocks1); those arrays are the host's gathers, scatter-adds, transposes and reshapes of the
  arguments, so the result buffer ends at one function `G` of the arguments (KernelRun, SpecFold).  The reference applies
  the same gathers and scatter-adds and the host forms of the same arithmetic, which read at an index are the same
  sums, so its result is `G` of its arguments (RefValue).  No law of the extended reals beyond reading each operation at an
  index is used, and the precondition is not needed.  The idealized kernel is the kernel's own text read on the extended reals, so there is nothing to preserve.
-/
import proofs.«123944_j59854664237698_1_alg».proof.Defs
import proofs.«123944_j59854664237698_1_alg».proof.Proof.Gen.Kernel
import proofs.«123944_j59854664237698_1_alg».proof.Proof.Gen.Kernel.Skeleton
import proofs.«123944_j59854664237698_1_alg».proof.Proof.Gen.Kernel.Launch
import proofs.«123944_j59854664237698_1_alg».proof.Proof.Gen.Kernel.Points
import proofs.«123944_j59854664237698_1_alg».proof.Proof.Gen.Kernel.Frame
import proofs.«123944_j59854664237698_1_alg».proof.Proof.Gen.KernelIdeal
import proofs.«123944_j59854664237698_1_alg».proof.Proof.Gen.KernelIdeal.Skeleton
import proofs.«123944_j59854664237698_1_alg».proof.Proof.Gen.KernelIdeal.Launch
import proofs.«123944_j59854664237698_1_alg».proof.Proof.Gen.KernelIdeal.Points
import proofs.«123944_j59854664237698_1_alg».proof.Proof.Gen.KernelIdeal.Frame
import proofs.«123944_j59854664237698_1_alg».proof.Proof.Gen.ReferenceIdeal
import proofs.«123944_j59854664237698_1_alg».proof.Proof.Gen.Pre_finite_inputs
import proofs.«123944_j59854664237698_1_alg».proof.Proof.Gen.ReferenceIdeal.Run
import proofs.«123944_j59854664237698_1_alg».proof.Proof.Gen.ReferenceIdeal.Read
import proofs.«123944_j59854664237698_1_alg».proof.Proof.KernelRun
import proofs.«123944_j59854664237698_1_alg».proof.Proof.SpecFold
import proofs.«123944_j59854664237698_1_alg».proof.Proof.RefValue
import Idealize.ShloMosaic.Adequacy
import Idealize.ShloMosaic.Init

noncomputable section

namespace Cert.Proof

open Idealize.ShloMosaic Idealize.SL.Sem

/-- Both idealized programs end with the result array at `G` of the argument arrays, which agree. -/
theorem algebraic : Cert.algebraic_KernelIdeal_ReferenceIdeal := by
  intro m ρ m' ρ' _ hagree
  refine ⟨fun c => Cert.Sage.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.Sage.W4_result m ρ c), (h c).2⟩)
      (Cert.Sage.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v64_eq, Cert.Sage.ref_value, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
